-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S128x128, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x1, .f32⟩
  | .local _ .vmem, ⟨4, _⟩ => ⟨S400x10000, .f32⟩
  | .local _ .vmem, ⟨5, _⟩ => ⟨S400x10000, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  transposes_S128x128_S128x128_1_0 : S128x128.Transposes [1, 0] S128x128
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S400x10000_S400x10000_0_0 : ∀ a, (![0, 0] : Fin 2 → Nat) a + S400x10000.size a ≤ S400x10000.size a
  h_S400x10000 : 0 < S400x10000.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  bcast_S10000x128_S1x10000x128_1_2 : S10000x128.BroadcastsInDim S1x10000x128 (![1, 2] : Fin 2 → Fin S1x10000x128.rank)
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S10000x128 : Shape := ⟨2, ![10000, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x1x128, .f32⟩
  | .hbm, ⟨7, _⟩ => ⟨S1x10000x128, .f32⟩
  | .hbm, ⟨8, _⟩ => ⟨S1x10000x128, .f32⟩
  | .hbm, ⟨9, _⟩ => ⟨S10000x128, .f32⟩
  | .hbm, ⟨10, _⟩ => ⟨S10000x128, .f32⟩
  | .hbm, ⟨11, _⟩ => ⟨S1x10000x128, .f32⟩
  | .hbm, ⟨12, _⟩ => ⟨S_, .f32⟩
  | .hbm, ⟨13, _⟩ => ⟨S1x10000x128, .f32⟩
  | .hbm, ⟨14, _⟩ => ⟨S1x10000x128, .i1⟩
  | .hbm, ⟨15, _⟩ => ⟨S_, .f32⟩
  | .hbm, ⟨16, _⟩ => ⟨S1x10000x128, .f32⟩
  | .hbm, ⟨17, _⟩ => ⟨S1x10000x128, .f32⟩
  | .hbm, ⟨18, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  shapeCasts_S1x10000x128_S10000x128 : S1x10000x128.ShapeCasts S10000x128
  bcast_S10000x128_S1x10000x128_1_2 : S10000x128.BroadcastsInDim S1x10000x128 (![1, 2] : Fin 2 → Fin S1x10000x128.rank)
  bcast_S_S1x10000x128 : S_.BroadcastsInDim S1x10000x128 (![] : Fin 0 → Fin S1x10000x128.rank)
  shapeCasts_S1_S_ : S1.ShapeCasts S_
  dot_S1x10000x128_S128x128_S1x10000x128_2_1_01_0_n_n_wf : DotDims.WF S1x10000x128 S128x128 S1x10000x128 [2] [1] [0, 1] [0] [] []
  dot_S10000x10000_S10000x128_S10000x128_1_0_0_1_n_n_wf : DotDims.WF S10000x10000 S10000x128 S10000x128 [1] [0] [0] [1] [] []

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelEntry.lean ====
/-
  What the kernel region is handed.

  Before the region the program reshapes the features [1, 10000, 128] to [10000, 128], transposes the weights,
  reshapes the bias [128] to the row [1, 128] and the slope [1] to the block [1, 1]; the adjacency goes in as it is.
  Each of the four small operands is one block that every grid step sees whole (its block index never moves), and
  the adjacency is cut into 25 blocks of 400 rows, step `t` seeing rows `400 · t … 400 · t + 399`.  An element of a
  window's block sits in the array, on each axis, at block index × block size + its coordinate inside the block.
-/
import proofs.«109092_g8650064134273_cont_sun_m_1390_15_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Entry

open Cert.KernelIdeal Cert.KernelIdeal.Gen Idealize.ShloMosaic Idealize.ShloMosaic.TcCoe Idealize.SL.Sem Idealize.ShloMosaic.Tactic
open Idealize.ShloMosaic.ValueIdx

variable {F : FTy → Type} [FloatOps F]
variable (m : (ℓ : Loc nD τ sig) → Buf (Elt F) ℓ)

/-- The region finds, as its feature matrix, the features with the batch axis of extent one dropped. -/
theorem entry_features (c : Dev nD) : (V m c main_v0 : S10000x128.Idx → Elt F .f32)
    = shapeCast S10000x128 (m ((c : Thread nD τ).loc main_arg0)) shapeCasts_S1x10000x128_S10000x128 := by
  show StableHlo.after hostOps0 (fun b => m (c, b)) (Proc.devRef .tc main_v0) = _
  after_results <;> rfl

/-- It finds, as its second operand, the weight matrix transposed. -/
theorem entry_weights (c : Dev nD) : (V m c main_v1 : S128x128.Idx → Elt F .f32)
    = transpose S128x128 [1, 0] (m ((c : Thread nD τ).loc main_arg2)) transposes_S128x128_S128x128_1_0 := by
  show StableHlo.after hostOps0 (fun b => m (c, b)) (Proc.devRef .tc main_v1) = _
  after_results <;> rfl

/-- It finds the bias as one row. -/
theorem entry_bias (c : Dev nD) : (V m c main_v2 : S1x128.Idx → Elt F .f32)
    = shapeCast S1x128 (m ((c : Thread nD τ).loc main_arg3)) shapeCasts_S128_S1x128 := by
  show StableHlo.after hostOps0 (fun b => m (c, b)) (Proc.devRef .tc main_v2) = _
  after_results <;> rfl

/-- It finds the slope as a 1 × 1 block. -/
theorem entry_slope (c : Dev nD) : (V m c main_v3 : S1x1.Idx → Elt F .f32)
    = shapeCast S1x1 (m ((c : Thread nD τ).loc main_arg4)) shapeCasts_S1_S1x1 := by
  show StableHlo.after hostOps0 (fun b => m (c, b)) (Proc.devRef .tc main_v3) = _
  after_results <;> rfl

/-- The block index of every window at every grid step: the four small operands always sit at block (0, 0); the
    adjacency and the output move down one block of 400 rows per step. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- At every step the feature window's block is the whole feature matrix. -/
theorem features_block (c : Dev nD) (t : Fin cfg0.N) :
    (iblk m c 0 t : S10000x128.Idx → Elt F .f32) = V m c main_v0 := by
  obtain ⟨e0, e1, -⟩ := idx_facts t
  funext j
  unfold iblk
  rw [View.read_apply]
  show V m c main_v0 _ = V m c main_v0 j
  congr 1
  funext a
  apply Fin.ext
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- At every step the weight window's block is the whole transposed weight matrix. -/
theorem weights_block (c : Dev nD) (t : Fin cfg0.N) :
    (iblk m c 1 t : S128x128.Idx → Elt F .f32) = V m c main_v1 := by
  obtain ⟨-, -, e0, e1, -⟩ := idx_facts t
  funext j
  unfold iblk
  rw [View.read_apply]
  show V m c main_v1 _ = V m c main_v1 j
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- At every step the bias window's block is the whole bias row. -/
theorem bias_block (c : Dev nD) (t : Fin cfg0.N) :
    (iblk m c 2 t : S1x128.Idx → Elt F .f32) = V m c main_v2 := by
  obtain ⟨-, -, -, -, e0, e1, -⟩ := idx_facts t
  funext j
  unfold iblk
  rw [View.read_apply]
  show V m c main_v2 _ = V m c main_v2 j
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

/-- At every step the slope window's block is the whole slope block. -/
theorem slope_block (c : Dev nD) (t : Fin cfg0.N) :
    (iblk m c 3 t : S1x1.Idx → Elt F .f32) = V m c main_v3 := by
  obtain ⟨-, -, -, -, -, -, e0, e1, -⟩ := idx_facts t
  funext j
  unfold iblk
  rw [View.read_apply]
  show V m c main_v3 _ = V m c main_v3 j
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 1 + 1 * (j 1).val = (j 1).val; rw [e1]; omega

/-- At step `t` the adjacency window's block, at `(r, k)`, is the adjacency at row `400 · t + r`, column `k`. -/
theorem adj_block_apply (c : Dev nD) (t : Fin cfg0.N) (r : Fin 400) (k : Fin 10000) (q : Fin 10000)
    (hq : q.val = 400 * t.val + r.val) :
    (iblk m c 4 t : S400x10000.Idx → Elt F .f32) (ix2 r k) = V m c main_arg1 (ix2 q k) := by
  obtain ⟨-, -, -, -, -, -, -, -, e0, e1, -⟩ := idx_facts t
  unfold iblk
  rw [View.read_apply]
  show V m c main_arg1 _ = V m c main_arg1 (ix2 q k)
  congr 1
  funext a
  apply Fin.ext
  match a with
  | ⟨0, _⟩ => show win0_4.index t (0 : Fin 2) * 400 + 1 * r.val = q.val; rw [e0, hq]; omega
  | ⟨1, _⟩ => show win0_4.index t (1 : Fin 2) * 10000 + 1 * k.val = k.val; rw [e1]; omega

end Cert.KernelIdeal.Entry

end
-- ==== Proof.KernelPieces.lean ====
/-
  What one run of the kernel body leaves behind, as values.

  The body runs in two ways.  At the first grid step it computes the projected features from the three whole
  blocks it is given (features, transposed weights, bias row), stores them whole into the resident buffer, reads
  that buffer back, multiplies the step's 400 adjacency rows with it, rectifies, and stores the 400 × 128 result
  whole into the output block's buffer.  At every later step it skips the projection: the resident buffer still
  holds what an earlier step left, and only the product, the rectifier and the store happen.  Every load and every
  store goes through a whole buffer at zero offsets, so a load reads the buffer's contents and a single covering
  store leaves exactly the stored value.
-/
import proofs.«109092_g8650064134273_cont_sun_m_1390_15_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem Idealize.ShloMosaic.Tactic

variable {F : FTy → Type} [FloatOps F]

/-- The zero offsets of a whole-buffer access. -/
theorem hz : (![0, 0] : Fin 2 → Nat) = fun _ => 0 := funext fun a => by fin_cases a <;> rfl

/-- A grid step other than the first finds the resident buffer holding `xs0` and leaves in the output block's buffer
    the rectified product of its adjacency rows `x4` with `xs0`, with slope block `x3`. -/
theorem out_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S1x1 .f32) (x4 : Vec F S400x10000 .f32) (xs0 : Vec F S10000x128 .f32) :
    out0_B_5 c i arg1 harg1 arg2 harg2 arg3 harg3 arg4 harg4 arg5 harg5 arg6 harg6 arg7 harg7 hc0 x0 x1 x2 x3 x4 xs0 = k0_pay2 x4 xs0 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  rw [View.canon_unit_zero hz]
  simp only [View.readAt_eq_ld, harg5.read_unread, harg7.read_unread, harg4.read_unread,
    View.ld_unit_zero (S := S400x10000) hz, View.ld_unit_zero (S := S10000x128) hz, View.ld_unit_zero (S := S1x1) hz]

/-- The first grid step stores the projection of `x0`, `x1`, `x2` into the resident buffer, reads it back, and leaves in
    the output block's buffer the rectified product of its adjacency rows with that projection. -/
theorem out_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S1x1 .f32) (x4 : Vec F S400x10000 .f32) :
    out0_A_5 c i arg1 harg1 arg2 harg2 arg3 harg3 arg4 harg4 arg5 harg5 arg6 harg6 arg7 harg7 hc0 x0 x1 x2 x3 x4 = k0_pay2 x4 (k0_pay1 x0 x1 x2) x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz, View.readCov_unit_zero (S := S10000x128) _ hz]
  simp only [View.readAt_eq_ld, harg1.read_unread, harg2.read_unread, harg3.read_unread, harg4.read_unread, harg5.read_unread,
    View.ld_unit_zero (S := S400x10000) hz, View.ld_unit_zero (S := S10000x128) hz, View.ld_unit_zero (S := S1x1) hz,
    View.ld_unit_zero (S := S128x128) hz, View.ld_unit_zero (S := S1x128) hz]

/-- The first grid step leaves the projection in the resident buffer. -/
theorem sout_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S1x1 .f32) (x4 : Vec F S400x10000 .f32) :
    sout0_A_0 c i arg1 harg1 arg2 harg2 arg3 harg3 arg4 harg4 arg5 harg5 arg6 harg6 arg7 harg7 hc0 x0 x1 x2 x3 x4 = k0_pay1 x0 x1 x2 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread,
    View.ld_unit_zero (S := S10000x128) hz, View.ld_unit_zero (S := S128x128) hz, View.ld_unit_zero (S := S1x128) hz]

end Cert.KernelIdeal.Body

end
-- ==== Proof.KernelPoints.lean ====
/-
  The kernel's two buffers after each grid step.

  The projected features depend on no grid step: they are one function `resident` of the whole feature matrix, the
  whole transposed weights and the whole bias row.  The first step stores them into the resident buffer; later steps
  only read it.  So after every step the resident buffer holds `resident`, and the output block's buffer holds the
  rectified product of that step's 400 adjacency rows with `resident`.
-/
import proofs.«109092_g8650064134273_cont_sun_m_1390_15_alg».proof.Proof.KernelEntry
import proofs.«109092_g8650064134273_cont_sun_m_1390_15_alg».proof.Proof.KernelPieces

noncomputable section

namespace Cert.KernelIdeal.Entry

open Cert.KernelIdeal Cert.KernelIdeal.Gen Idealize.ShloMosaic Idealize.ShloMosaic.TcCoe Idealize.SL.Sem Idealize.ShloMosaic.Tactic
open Idealize.ShloMosaic.ValueIdx

variable {F : FTy → Type} [FloatOps F]
variable (m : (ℓ : Loc nD τ sig) → Buf (Elt F) ℓ)

open Cert.KernelIdeal.Body

/-- What the resident buffer holds from the first grid step on. -/
def resident (c : Dev nD) : Vec F S10000x128 .f32 := k0_pay1 (V m c main_v0) (V m c main_v1) (V m c main_v2)

/-- After grid step `n` the output block's buffer holds the rectified product of step `n`'s adjacency rows with the
    projection, and the resident buffer holds the projection: the first step computes and stores it, every later
    step finds it as the step before left it and does not write it.  By induction on the step. -/
theorem outsAt_eq (c : Dev nD) : ∀ (n : ℕ) (h : n < cfg0.N),
    outsAt0 m c n h = (k0_pay2 (iblk m c 4 ⟨n, h⟩) (resident m c) (V m c main_v3), resident m c)
  | 0, h => by
    rw [outsAt0_A m c ⟨0, h⟩ (Nat.zero_mod _), out_A, sout_A, features_block, weights_block, bias_block, slope_block]
    rfl
  | n + 1, h => by
    have hN : cfg0.N = 25 := N_0
    have hB : ¬(⟨n + 1, h⟩ : Fin cfg0.N).val % 25 = 0 := by dsimp only; omega
    rw [outsAt0_B m c ⟨n + 1, h⟩ hB, out_B]
    unfold sout0_B_0
    show (k0_pay2 _ (outsAt0 m c n _).2 _, (outsAt0 m c n _).2) = _
    rw [outsAt_eq c n, slope_block]

end Cert.KernelIdeal.Entry

end
-- ==== Proof.Spec.lean ====
/-
  One graph-convolution layer, stated index by index over the extended reals.

  The arguments are the node features `x` (one batch of 10000 nodes with 128 features each), the dense
  10000 × 10000 adjacency `a`, the weight matrix `W` (128 outputs × 128 inputs), the bias `b` and the single
  slope `p` of the parametric rectifier.  Node `n`'s projected feature `o` is the inner product of row `n` of
  `x` with row `o` of `W`, plus `b o` (`lin`).  Node `r`'s aggregated feature `o` is the sum over all
  nodes `k` of `a r k` times node `k`'s projected feature `o` (`agg`).  The rectifier keeps a value that
  compares `≥ 0` and multiplies any other by the slope (`prelu`).  The layer's result at node `r`, feature
  `o` is the rectifier of the aggregated feature (`layer`), and the result with its leading batch axis of
  extent one is the same numbers at `(0, r, o)` (`out`).

  Nothing here is evaluated: the comparison and the selection are the float operations' own (read at the
  extended reals), the zero they compare against is the word of `+0.0`, and sums are sums of a commutative
  monoid, so no order of summation is fixed.
-/
import Idealize.ShloMosaic.PureOps.Ideal
import Idealize.ShloMosaic.Lib.ValueIdx

noncomputable section

open scoped BigOperators

namespace GcnSpec

open Idealize.ShloMosaic Idealize.ShloMosaic.ValueIdx

/-- Node `n`'s projected feature `o`: row `n` of `x` against row `o` of `W`, plus the bias. -/
def lin (x : (⟨3, ![1, 10000, 128]⟩ : Shape).Idx → EReal) (W : (⟨2, ![128, 128]⟩ : Shape).Idx → EReal)
    (b : (⟨1, ![128]⟩ : Shape).Idx → EReal) (n : Fin 10000) (o : Fin 128) : EReal :=
  (∑ d : Fin 128, x (ix3 (0 : Fin 1) n d) * W (ix2 o d)) + b (ix1 o)

/-- Node `r`'s aggregated feature `o`: the adjacency's row `r` against column `o` of the projected features. -/
def agg (a : (⟨2, ![10000, 10000]⟩ : Shape).Idx → EReal) (h : Fin 10000 → Fin 128 → EReal)
    (r : Fin 10000) (o : Fin 128) : EReal :=
  ∑ k : Fin 10000, a (ix2 r k) * h k o

/-- The parametric rectifier with slope `p`: `v` where `v ≥ 0`, `p · v` elsewhere. -/
def prelu (p v : EReal) : EReal :=
  Scalar.select (FloatOps.cmpf (F := Ideal) (φ := .f32) .oge v (Ideal.ofBits .f32 0x00000000#32)) v (p * v)

/-- The layer's result as a 10000 × 128 matrix. -/
def layer (x : (⟨3, ![1, 10000, 128]⟩ : Shape).Idx → EReal) (a : (⟨2, ![10000, 10000]⟩ : Shape).Idx → EReal)
    (W : (⟨2, ![128, 128]⟩ : Shape).Idx → EReal) (b : (⟨1, ![128]⟩ : Shape).Idx → EReal)
    (p : (⟨1, ![1]⟩ : Shape).Idx → EReal) : (⟨2, ![10000, 128]⟩ : Shape).Idx → EReal :=
  fun i => prelu (p (ix1 (0 : Fin 1))) (agg a (lin x W b) (i 0) (i 1))

/-- The layer's result with the batch axis of extent one in front. -/
def out (x : (⟨3, ![1, 10000, 128]⟩ : Shape).Idx → EReal) (a : (⟨2, ![10000, 10000]⟩ : Shape).Idx → EReal)
    (W : (⟨2, ![128, 128]⟩ : Shape).Idx → EReal) (b : (⟨1, ![128]⟩ : Shape).Idx → EReal)
    (p : (⟨1, ![1]⟩ : Shape).Idx → EReal) : (⟨3, ![1, 10000, 128]⟩ : Shape).Idx → EReal :=
  fun i => layer x a W b p (ix2 (i 1) (i 2))

theorem layer_apply (x : (⟨3, ![1, 10000, 128]⟩ : Shape).Idx → EReal) (a : (⟨2, ![10000, 10000]⟩ : Shape).Idx → EReal)
    (W : (⟨2, ![128, 128]⟩ : Shape).Idx → EReal) (b : (⟨1, ![128]⟩ : Shape).Idx → EReal)
    (p : (⟨1, ![1]⟩ : Shape).Idx → EReal) (r : Fin 10000) (o : Fin 128) :
    layer x a W b p (ix2 r o) = prelu (p (ix1 (0 : Fin 1))) (agg a (lin x W b) r o) := rfl

end GcnSpec

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.KernelPayloads.lean ====
/-
  The kernel body's two stored values, read at an index at the extended reals.

  The value the first grid step stores into the resident buffer is the product of the node features (10000 × 128)
  with the transposed weights (128 × 128), accumulated from zero, plus the bias row broadcast down the 10000 rows: at
  `(n, o)` it is the sum over `d` of `features (n, d) · weightsᵀ (d, o)`, plus `bias (0, o)`.

  The value every grid step stores into its output block is the rectifier of the product of the step's 400 rows of
  the adjacency (400 × 10000) with the resident buffer (10000 × 128), accumulated from zero: at `(r, o)` it is the
  rectifier, with the one element of the slope block as slope, of the sum over `k` of
  `adjacency rows (r, k) · resident (k, o)`.
-/
import proofs.«109092_g8650064134273_cont_sun_m_1390_15_alg».proof.Proof.Gen.KernelIdeal.Skeleton
import proofs.«109092_g8650064134273_cont_sun_m_1390_15_alg».proof.Proof.Spec
import proofs.«109092_g8650064134273_cont_sun_m_1390_15_alg».proof.Proof.LibDotRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The value stored into the resident buffer, at `(n, o)`. -/
theorem proj_payload_apply (x0 : Vec Ideal S10000x128 .f32) (x1 : Vec Ideal S128x128 .f32) (x2 : Vec Ideal S1x128 .f32)
    (n : Fin 10000) (o : Fin 128) :
    k0_pay1 (F := Ideal) x0 x1 x2 (ix2 n o)
      = (∑ d : Fin 128, x0 (ix2 n d) * x1 (ix2 d o)) + x2 (ix2 (0 : Fin 1) o) := by
  have hm : FloatOps.matmul (F := Ideal) (φ₁ := .f32) (φ₂ := .f32) dot_S10000x128_S128x128_S10000x128_1_0_0_1_n_n none x0 x1 (constant (F := Ideal) S10000x128 .f32 0x00000000#32) (ix2 n o)
      = ∑ d : Fin 128, x0 (ix2 n d) * x1 (ix2 d o) :=
    matmul_zero_rows dot_S10000x128_S128x128_S10000x128_1_0_0_1_n_n none rfl rfl (fun _ _ => rfl) (fun _ _ => rfl)
      (fun _ _ => rfl) (fun _ _ => rfl) x0 x1 n o
  have hb : broadcastTo S10000x128 x2 broadcasts_S1x128_S10000x128 (ix2 n o) = x2 (ix2 (0 : Fin 1) o) :=
    broadcastTo_1b_ab_apply x2 broadcasts_S1x128_S10000x128 n o
  unfold k0_pay1
  simp only [shapeCast_self]
  exact congrArg₂ (fun u v : EReal => u + v) hm hb

/-- The value stored into the output block, at `(r, o)`. -/
theorem out_payload_apply (x4 : Vec Ideal S400x10000 .f32) (xs : Vec Ideal S10000x128 .f32) (x3 : Vec Ideal S1x1 .f32)
    (r : Fin 400) (o : Fin 128) :
    k0_pay2 (F := Ideal) x4 xs x3 (ix2 r o)
      = GcnSpec.prelu (x3 (ix2 (0 : Fin 1) (0 : Fin 1))) (∑ k : Fin 10000, x4 (ix2 r k) * xs (ix2 k o)) := by
  have hm : FloatOps.matmul (F := Ideal) (φ₁ := .f32) (φ₂ := .f32) dot_S400x10000_S10000x128_S400x128_1_0_0_1_n_n none x4 xs (constant (F := Ideal) S400x128 .f32 0x00000000#32) (ix2 r o)
      = ∑ k : Fin 10000, x4 (ix2 r k) * xs (ix2 k o) :=
    matmul_zero_rows dot_S400x10000_S10000x128_S400x128_1_0_0_1_n_n none rfl rfl (fun _ _ => rfl) (fun _ _ => rfl)
      (fun _ _ => rfl) (fun _ _ => rfl) x4 xs r o
  have hp : extractAt ![0, 0] x3 inpos_S1x1_p0_0 = x3 (ix2 (0 : Fin 1) (0 : Fin 1)) :=
    congrArg x3 (funext fun a => Fin.ext (by match a with | ⟨0, _⟩ => rfl | ⟨1, _⟩ => rfl))
  unfold k0_pay2 GcnSpec.prelu
  show Scalar.select (FloatOps.cmpf (F := Ideal) (φ := .f32) .oge (FloatOps.matmul (F := Ideal) (φ₁ := .f32) (φ₂ := .f32) dot_S400x10000_S10000x128_S400x128_1_0_0_1_n_n none x4 xs (constant (F := Ideal) S400x128 .f32 0x00000000#32) (ix2 r o)) _)
      (FloatOps.matmul (F := Ideal) (φ₁ := .f32) (φ₂ := .f32) dot_S400x10000_S10000x128_S400x128_1_0_0_1_n_n none x4 xs (constant (F := Ideal) S400x128 .f32 0x00000000#32) (ix2 r o))
      (extractAt ![0, 0] x3 inpos_S1x1_p0_0 * FloatOps.matmul (F := Ideal) (φ₁ := .f32) (φ₂ := .f32) dot_S400x10000_S10000x128_S400x128_1_0_0_1_n_n none x4 xs (constant (F := Ideal) S400x128 .f32 0x00000000#32) (ix2 r o)) = _
  rw [hm, hp]
  rfl

end Cert.KernelIdeal.Body

end
-- ==== Proof.KernelArray.lean ====
/-
  The kernel program's result array is the layer of `GcnSpec`.

  Step `t` of the grid leaves in its output block, at `(r, o)`, the rectified sum over `k` of the adjacency at
  `(400 · t + r, k)` times the resident projection at `(k, o)`; the resident projection at `(k, o)` is node `k`'s
  projected feature `o` of the arguments, and the slope block holds the slope.  So the block step `t` writes back is
  rows `400 · t … 400 · t + 399` of the layer's 10000 × 128 matrix.  The 25 blocks cover every row (row `r` lies in
  block `r / 400`), so after the last step the array is that matrix, and the host operation after the region only
  adds the batch axis in front.
-/
import proofs.«109092_g8650064134273_cont_sun_m_1390_15_alg».proof.Proof.KernelPoints
import proofs.«109092_g8650064134273_cont_sun_m_1390_15_alg».proof.Proof.KernelPayloads
import proofs.«109092_g8650064134273_cont_sun_m_1390_15_alg».proof.Proof.Spec
import Idealize.ShloMosaic.Lib.ValueLayout

noncomputable section

open scoped BigOperators

namespace Cert.KernelIdeal.Result

open Cert.KernelIdeal Cert.KernelIdeal.Gen Cert.KernelIdeal.Entry Cert.KernelIdeal.Body
open Idealize.ShloMosaic Idealize.ShloMosaic.TcCoe Idealize.SL.Sem Idealize.ShloMosaic.Tactic
open Idealize.ShloMosaic.ValueIdx
open Idealize.ShloMosaic.Pipeline (Dat)

variable (m : (ℓ : Loc nD τ sig) → Buf (Elt Ideal) ℓ) (ρ : Dev nD → PrngReg)

/-- The layer's matrix of the five arguments' launch contents on core `c`. -/
abbrev layerOf (c : Dev nD) : Buf (Elt Ideal) ((c : Thread nD τ).loc main_v4) :=
  GcnSpec.layer (m ((c : Thread nD τ).loc main_arg0)) (m ((c : Thread nD τ).loc main_arg1)) (m ((c : Thread nD τ).loc main_arg2)) (m ((c : Thread nD τ).loc main_arg3)) (m ((c : Thread nD τ).loc main_arg4))

/-- The same with the batch axis in front. -/
abbrev outOf (c : Dev nD) : Buf (Elt Ideal) ((c : Thread nD τ).loc main_v5) :=
  GcnSpec.out (m ((c : Thread nD τ).loc main_arg0)) (m ((c : Thread nD τ).loc main_arg1)) (m ((c : Thread nD τ).loc main_arg2)) (m ((c : Thread nD τ).loc main_arg3)) (m ((c : Thread nD τ).loc main_arg4))

/-- The resident buffer at `(k, o)` is node `k`'s projected feature `o`: the features with the batch axis dropped read
    at `(k, d)` are `x (0, k, d)`, the transposed weights at `(d, o)` are `W (o, d)`, the bias row at `(0, o)` is `b o`. -/
theorem resident_apply (c : Dev nD) (k : Fin 10000) (o : Fin 128) :
    resident m c (ix2 k o) = GcnSpec.lin (m ((c : Thread nD τ).loc main_arg0)) (m ((c : Thread nD τ).loc main_arg2)) (m ((c : Thread nD τ).loc main_arg3)) k o := by
  unfold resident
  refine (proj_payload_apply _ _ _ k o).trans ?_
  unfold GcnSpec.lin
  rw [entry_features, entry_weights, entry_bias]
  simp only [shapeCast_1ab_ab_apply, shapeCast_a_1a_apply]
  refine congrArg₂ (fun u v : EReal => u + v) (Finset.sum_congr rfl fun d _ => ?_) rfl
  rw [transpose_ix2_apply]

/-- The slope block's one element is the slope vector's one element. -/
theorem slope_apply (c : Dev nD) :
    (V m c main_v3 : S1x1.Idx → Elt Ideal .f32) (ix2 (0 : Fin 1) (0 : Fin 1)) = (m ((c : Thread nD τ).loc main_arg4)) (ix1 (0 : Fin 1)) := by
  rw [entry_slope]
  exact shapeCast_a_1a_apply _ shapeCasts_S1_S1x1 (0 : Fin 1) (0 : Fin 1)

/-- The stored output value at `(r, o)`, for any three loaded values that read, where the sum needs them, as rows of an
    adjacency `A` from row `q`, as projected features `H`, and as a slope `p`. -/
theorem out_block_apply (x4 : Vec Ideal S400x10000 .f32) (xs : Vec Ideal S10000x128 .f32) (x3 : Vec Ideal S1x1 .f32)
    (A : (⟨2, ![10000, 10000]⟩ : Shape).Idx → EReal) (H : Fin 10000 → Fin 128 → EReal) (p : EReal)
    (q : Fin 10000) (r : Fin 400) (o : Fin 128)
    (h4 : ∀ k : Fin 10000, x4 (ix2 r k) = A (ix2 q k)) (hs : ∀ k : Fin 10000, xs (ix2 k o) = H k o)
    (h3 : x3 (ix2 (0 : Fin 1) (0 : Fin 1)) = p) :
    k0_pay2 (F := Ideal) x4 xs x3 (ix2 r o) = GcnSpec.prelu p (GcnSpec.agg A H q o) := by
  refine (out_payload_apply x4 xs x3 r o).trans ?_
  rw [h3]
  unfold GcnSpec.agg
  refine congrArg (GcnSpec.prelu p) (Finset.sum_congr rfl fun k _ => ?_)
  rw [h4 k, hs k]

/-- What step `t` leaves in the output block's buffer, at `(r, o)`, is the layer at row `400 · t + r`. -/
theorem point_value (c : Dev nD) (t : Fin cfg0.N) (r : Fin 400) (o : Fin 128) (q : Fin 10000)
    (hq : q.val = 400 * t.val + r.val) :
    k0_pay2 (F := Ideal) (iblk m c 4 t) (resident m c) (V m c main_v3) (ix2 r o) = layerOf m c (ix2 q o) :=
  out_block_apply (iblk m c 4 t) (resident m c) (V m c main_v3) (m ((c : Thread nD τ).loc main_arg1))
    (GcnSpec.lin (m ((c : Thread nD τ).loc main_arg0)) (m ((c : Thread nD τ).loc main_arg2)) (m ((c : Thread nD τ).loc main_arg3))) ((m ((c : Thread nD τ).loc main_arg4)) (ix1 (0 : Fin 1))) q r o
    (fun k => (adj_block_apply m c t r k q hq).trans (congrFun (V_main_arg1 m c) (ix2 q k)))
    (fun k => resident_apply m c k o) (slope_apply m c)

/-- A 400 × 128 block `X` that reads, at `(r, o)`, as a matrix `G` at `(400 · t + r, o)` is block `t` of `G`. -/
theorem block_of_rows (c : Dev nD) (t : Fin cfg0.N) (X : Vec Ideal S400x128 .f32) (G : Buf (Elt Ideal) ((c : Thread nD τ).loc main_v4))
    (h : ∀ (r : Fin 400) (o : Fin 128) (q : Fin 10000), q.val = 400 * t.val + r.val → X (ix2 r o) = G (ix2 q o)) :
    (cfg0.win 5).cut (grid0.coords t) X = ((cfg0.win 5).blk t).view.read (Elt Ideal) G := by
  obtain ⟨-, -, -, -, -, -, -, -, -, -, e0, e1⟩ := idx_facts t
  have hN : t.val < 25 := lt_of_lt_of_eq t.isLt (show cfg0.N = 25 from N_0)
  funext y
  obtain ⟨r, o, rfl⟩ : ∃ (r : Fin 400) (o : Fin 128), y = ix2 r o := ⟨y 0, y 1, eq_ix2 y⟩
  have hq : 400 * t.val + r.val < 10000 := by have := r.isLt; omega
  have he : ((cfg0.win 5).blk t).view.emb (ix2 r o) = ix2 (⟨400 * t.val + r.val, hq⟩ : Fin 10000) o := by
    funext a
    apply Fin.ext
    match a with
    | ⟨0, _⟩ => show win0_5.index t (0 : Fin 2) * 400 + 1 * r.val = 400 * t.val + r.val; rw [e0]; omega
    | ⟨1, _⟩ => show win0_5.index t (1 : Fin 2) * 128 + 1 * o.val = o.val; rw [e1]; omega
  show X (ix2 r o) = G (((cfg0.win 5).blk t).view.emb (ix2 r o))
  exact (h r o ⟨400 * t.val + r.val, hq⟩ rfl).trans (congrArg G he.symm)

/-- What step `t` writes back is block `t` of the layer's matrix. -/
theorem flushed_eq (c : Dev nD) (t : Fin cfg0.N) :
    (dats m 0 c).flushed 5 t = ((cfg0.win 5).blk t).view.read (Elt Ideal) (layerOf m c) := by
  obtain ⟨n, hn⟩ := t
  show (cfg0.win 5).cut (grid0.coords ⟨n, hn⟩) ((dats m 0 c).after 5 ⟨n, hn⟩) = _
  rw [after0_5]
  dsimp only
  rw [outsAt_eq m c n hn]
  dsimp only
  have hX := point_value m c ⟨n, hn⟩
  generalize k0_pay2 (F := Ideal) (iblk m c 4 ⟨n, hn⟩) (resident m c) (V m c main_v3) = X at hX ⊢
  exact block_of_rows c ⟨n, hn⟩ X (layerOf m c) hX

/-- An index of the result matrix is in step `t`'s block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v4).slice (win0_5.rect t)).set ↔ _
  rw [View.set_slice_whole, Rect.mem_set_unit]
  exact Iff.rfl

/-- Row `r` of the result is written by step `r / 400`. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  have ht : (i 0).val / 400 < cfg0.N := by rw [hN]; omega
  obtain ⟨-, -, -, -, -, -, -, -, -, -, e0, e1⟩ := idx_facts ⟨(i 0).val / 400, ht⟩
  refine ⟨⟨(i 0).val / 400, ht⟩, flush0_5 _, ?_⟩
  rw [mem_blk]
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win0_5.index ⟨(i 0).val / 400, ht⟩ (1 : Fin 2) * 128 ≤ (i 1).val ∧ (i 1).val < win0_5.index ⟨(i 0).val / 400, ht⟩ (1 : Fin 2) * 128 + 128
    rw [e1]
    omega

/-- After the last step the result matrix is the layer's. -/
theorem final (c : Dev nD) : (dats m 0 c).arrAt 5 cfg0.N = layerOf m c :=
  (dats m 0 c).arrAt_eq_of_cover 5 (layerOf m c) (fun t _ => flushed_eq m c t) cover

/-- The program's result: the one host operation after the region puts the batch axis of extent one in front of the
    matrix the region wrote, so at `(u, r, o)` it reads that matrix at `(r, o)`. -/
theorem result_eq (c : Dev nD) :
    Pipeline.afterTail₀ cfgs (dats m) 0 (V0 m) [hostOps1] c main_v5 = outOf m c := by
  unfold Pipeline.afterTail₀
  show StableHlo.after hostOps1 _ (Proc.devRef .tc main_v5) = _
  after_results
  have e := (Pipeline.withArrays_arr spec0 launch0.win.arr_inj c (V0 m c) (fun w => (dats m 0 c).arrAt w cfg0.N) 5).trans (final m c)
  refine (congrArg (broadcastInDim S1x10000x128 ![1, 2] bcast_S10000x128_S1x10000x128_1_2) e).trans ?_
  funext i
  obtain ⟨u, r, o, rfl⟩ : ∃ (u : Fin 1) (r : Fin 10000) (o : Fin 128), i = ix3 u r o := ⟨i 0, i 1, i 2, eq_ix3 i⟩
  exact broadcastInDim_apply _ bcast_S10000x128_S1x10000x128_1_2 (layerOf m c) (ix3 u r o) (ix2 r o) (fun a => match a with
    | ⟨0, _⟩ => by show r.val = if (10000 : Nat) = 1 then 0 else r.val; rw [if_neg (by decide)]
    | ⟨1, _⟩ => by show o.val = if (128 : Nat) = 1 then 0 else o.val; rw [if_neg (by decide)])

/-- The kernel program's run: its result ends at the layer of its arguments, and its arguments end unchanged. -/
theorem run : θ_run defs (onTc (τ := τ) (main (F := Ideal))) ⟨m, fun _ => 0, ρ⟩ fun r => ∀ c : Dev nD,
      r.2.mem ((c.tc : Thread nD τ).loc main_v5) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v5 (Pipeline.mem_restRefs_of main_v5 (by decide) (by decide))).trans (result_eq m c),
      (((h c).2 main_arg0 (Pipeline.mem_restRefs_of main_arg0 (by decide) (by decide))).trans (W_main_arg0 m (dats m) c)),
      ((h c).1 4).trans (((dats m 0 c).arrAt_in 4 rfl _).trans ((A_eq m c 4).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Result

end
-- ==== Proof.RefSide.lean ====
/-
  The reference program computes the layer of `GcnSpec`.

  Read one operation at a time at the extended reals: the first `dot_general` contracts the feature axis of
  `x` with the input axis of `W`, so its element `(0, n, o)` is the inner product of row `n` of `x` with row
  `o` of `W`; the bias is broadcast along the nodes and added; the reshape drops the batch axis of extent one
  (row-major position `n · 128 + o` on both sides); the second `dot_general` contracts the adjacency's column
  axis with the node axis; the batch axis is put back; the comparison against a broadcast `+0.0`, the product
  with the broadcast slope and the selection are elementwise.  So the result at `(u, r, o)` is the rectifier of
  the aggregated feature `(r, o)`, which is `GcnSpec.out`.
-/
import proofs.«109092_g8650064134273_cont_sun_m_1390_15_alg».proof.Defs
import proofs.«109092_g8650064134273_cont_sun_m_1390_15_alg».proof.Proof.Gen.ReferenceIdeal.Read
import proofs.«109092_g8650064134273_cont_sun_m_1390_15_alg».proof.Proof.Spec

noncomputable section

open scoped BigOperators

namespace Cert.ReferenceIdeal.RefValue

open Cert.ReferenceIdeal Cert.ReferenceIdeal.Read Idealize.ShloMosaic Idealize.ShloMosaic.ValueIdx

/-- A one-element vector has one index. -/
theorem idx1_eq (k : (⟨1, ![1]⟩ : Shape).Idx) : k = ix1 (0 : Fin 1) := by
  funext d
  match d with
  | ⟨0, _⟩ => exact Subsingleton.elim (α := Fin 1) _ _

/-- The reshaped projection at `(k, o)` is node `k`'s projected feature `o`. -/
theorem proj_apply (x0 : (⟨S1x10000x128, .f32⟩ : BufTy).Contents (Elt Ideal)) (x2 : (⟨S128x128, .f32⟩ : BufTy).Contents (Elt Ideal))
    (x3 : (⟨S128, .f32⟩ : BufTy).Contents (Elt Ideal)) (k : Fin 10000) (o : Fin 128) :
    val_main_v4 (F := Ideal) x0 x2 x3 (ix2 k o) = GcnSpec.lin x0 x2 x3 k o := by
  have e4 : idx_main_v4 (ix2 k o) = ix3 (0 : Fin 1) k o := funext fun a => Fin.ext (by
    have hk : k.val < 10000 := k.isLt
    have ho : o.val < 128 := o.isLt
    match a with
    | ⟨0, _⟩ => rfl
    | ⟨1, _⟩ => show (k.val * 128 + o.val) / 128 % 10000 = k.val; omega
    | ⟨2, _⟩ => show (k.val * 128 + o.val) % 128 = o.val; omega)
  have el : ∀ d : Fin 128, lidx_main_v0 (ix3 (0 : Fin 1) k o) d = ix3 (0 : Fin 1) k d := fun d =>
    funext fun a => Fin.ext (by match a with | ⟨0, _⟩ => rfl | ⟨1, _⟩ => rfl | ⟨2, _⟩ => rfl)
  have er : ∀ d : Fin 128, ridx_main_v0 (ix3 (0 : Fin 1) k o) d = ix2 o d := fun d =>
    funext fun a => Fin.ext (by match a with | ⟨0, _⟩ => rfl | ⟨1, _⟩ => rfl)
  have eb : idx_main_v1 (idx_main_v2 (ix3 (0 : Fin 1) k o)) = ix1 o :=
    funext fun a => Fin.ext (by match a with | ⟨0, _⟩ => rfl)
  rw [val_main_v4_apply, e4, val_main_v3_apply, val_main_v0_apply, val_main_v2_apply, val_main_v1_apply, eb]
  simp only [el, er]
  rfl

/-- The second product, with its batch axis put back, at `(u, r, o)` is node `r`'s aggregated feature `o`. -/
theorem agg_apply (x0 : (⟨S1x10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (u : Fin 1) (r : Fin 10000) (o : Fin 128) :
    val_main_v6 (F := Ideal) x0 x1 x2 x3 (ix3 u r o) = GcnSpec.agg x1 (GcnSpec.lin x0 x2 x3) r o := by
  rw [val_main_v6_apply, val_main_v5_apply]
  unfold GcnSpec.agg
  refine Finset.sum_congr rfl fun k _ => ?_
  have el : lidx_main_v5 (idx_main_v6 (ix3 u r o)) k = ix2 r k :=
    funext fun a => Fin.ext (by match a with | ⟨0, _⟩ => rfl | ⟨1, _⟩ => rfl)
  have er : ridx_main_v5 (idx_main_v6 (ix3 u r o)) k = ix2 k o :=
    funext fun a => Fin.ext (by match a with | ⟨0, _⟩ => rfl | ⟨1, _⟩ => rfl)
  rw [el, er, proj_apply]

/-- The slope, reshaped to a scalar and broadcast, is the one element of the slope vector everywhere. -/
theorem slope_apply (x4 : (⟨S1, .f32⟩ : BufTy).Contents (Elt Ideal)) (i : S1x10000x128.Idx) :
    val_main_v10 (F := Ideal) x4 i = x4 (ix1 (0 : Fin 1)) := by
  rw [val_main_v10_apply]
  unfold val_main_v9 shapeCast
  exact congrArg x4 (idx1_eq _)

/-- The reference's result is the layer of `GcnSpec`. -/
theorem result_eq (x0 : (⟨S1x10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S1, .f32⟩ : BufTy).Contents (Elt Ideal)) :
    val_main_v12 (F := Ideal) x0 x1 x2 x3 x4 = GcnSpec.out x0 x1 x2 x3 x4 := by
  funext i
  obtain ⟨u, r, o, rfl⟩ : ∃ (u : Fin 1) (r : Fin 10000) (o : Fin 128), i = ix3 u r o := ⟨i 0, i 1, i 2, eq_ix3 i⟩
  rw [val_main_v12_apply, val_main_v8_apply, val_main_v11_apply, agg_apply, slope_apply, val_main_v7_apply,
    val_main_cst_apply]
  rfl

end Cert.ReferenceIdeal.RefValue

end
-- ==== Proof.lean ====
/-
  A graph-convolution layer computed by one fused kernel equals its plain reference, over the extended reals.

  Both programs compute, for node `r` and output feature `o`, the rectifier (with one learned slope) of
  `∑ₖ a(r, k) · (∑_d x(k, d) · W(o, d) + b(o))` (`GcnSpec`).  The reference does it with two whole matrix products
  on the host.  The kernel walks a grid of 25 steps over blocks of 400 adjacency rows: its first step computes the
  inner projection `x · Wᵀ + b` once into a buffer that stays resident, and every step multiplies its 400 rows
  with that buffer, rectifies, and writes its block of the result; the program around it only reshapes and
  transposes the arguments going in and puts the batch axis back on the result.  At the extended reals a matrix
  product is the plain sum over the contracted index on either side, so the two results are the same function
  of the arguments, index by index, and no law beyond reading each side at an index is needed: the precondition
  is never opened.

  The three frames: the two kernel programs' are the generated frame certificates; the reference has no kernel
  and its frame is its run with the result dropped.  The idealization rewrote nothing, so `preserves` is `True`.
-/
import proofs.«109092_g8650064134273_cont_sun_m_1390_15_alg».proof.Defs
import proofs.«109092_g8650064134273_cont_sun_m_1390_15_alg».proof.Proof.Gen.Kernel
import proofs.«109092_g8650064134273_cont_sun_m_1390_15_alg».proof.Proof.Gen.Kernel.Frame
import proofs.«109092_g8650064134273_cont_sun_m_1390_15_alg».proof.Proof.Gen.KernelIdeal
import proofs.«109092_g8650064134273_cont_sun_m_1390_15_alg».proof.Proof.Gen.KernelIdeal.Frame
import proofs.«109092_g8650064134273_cont_sun_m_1390_15_alg».proof.Proof.Gen.ReferenceIdeal
import proofs.«109092_g8650064134273_cont_sun_m_1390_15_alg».proof.Proof.Gen.ReferenceIdeal.Run
import proofs.«109092_g8650064134273_cont_sun_m_1390_15_alg».proof.Proof.Gen.Pre_finite_inputs
import proofs.«109092_g8650064134273_cont_sun_m_1390_15_alg».proof.Proof.KernelArray
import proofs.«109092_g8650064134273_cont_sun_m_1390_15_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments both programs end with the layer of those arguments as result. -/
theorem algebraic : Cert.algebraic_KernelIdeal_ReferenceIdeal := by
  intro m ρ m' ρ' _ hagree
  refine ⟨fun c => Cert.KernelIdeal.Result.outOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _ _ _).trans ?_
  refine (Cert.ReferenceIdeal.RefValue.result_eq _ _ _ _ _).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
